-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v15)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v15) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x4x64 : Shape := ⟨3, ![50000, 4, 64]⟩
abbrev S4x800000 : Shape := ⟨2, ![4, 800000]⟩
abbrev S800000 : Shape := ⟨1, ![800000]⟩
abbrev S64x64 : Shape := ⟨2, ![64, 64]⟩
abbrev S64 : Shape := ⟨1, ![64]⟩
abbrev S_ : Shape := ⟨0, ![]⟩

class Facts : Prop where
  bcast_S_S50000x4x64 : S_.BroadcastsInDim S50000x4x64 (![] : Fin 0 → Fin S50000x4x64.rank)
  reducesTo_S50000x4x64_S_d0_1_2 : S50000x4x64.ReducesTo [0, 1, 2] S_
  h_S_ : 0 < S_.numel
  bcast_S_S4x800000 : S_.BroadcastsInDim S4x800000 (![] : Fin 0 → Fin S4x800000.rank)
  reducesTo_S4x800000_S_d0_1 : S4x800000.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  main_v18

def fn {F : FTy → Type} [FloatOps F] (main_arg0 : FVec F S50000x4x64 .f32) (main_arg1 : FVec F S4x800000 .f32) (main_arg2 : IVec S800000 32) (main_arg3 : IVec S800000 32) (main_arg4 : FVec F S64x64 .f32) (main_arg5 : FVec F S64 .f32) : IVec S_ 1 :=
  let main_v0 : FVec F S50000x4x64 .f32 := Host.absf main_arg0
  let main_cst : FVec F S_ .f32 := constant S_ .f32 0x7F800000#32
  let main_v1 : FVec F S50000x4x64 .f32 := broadcastInDim S50000x4x64 ![] bcast_S_S50000x4x64 main_cst
  let main_v2 : IVec S50000x4x64 1 := cmpf .olt main_v0 main_v1
  let main_c : IVec S_ 1 := constantI S_ 1 1#1
  let main_v3 : IVec S_ 1 := (fun x v => Host.reduce IntOp.andi x v reducesTo_S50000x4x64_S_d0_1_2 h_S_) main_v2 main_c
  let main_v4 : FVec F S4x800000 .f32 := Host.absf main_arg1
  let main_cst_0 : FVec F S_ .f32 := constant S_ .f32 0x7F800000#32
  let main_v5 : FVec F S4x800000 .f32 := broadcastInDim S4x800000 ![] bcast_S_S4x800000 main_cst_0
  let main_v6 : IVec S4x800000 1 := cmpf .olt main_v4 main_v5
  let main_c_1 : IVec S_ 1 := constantI S_ 1 1#1
  let main_v7 : IVec S_ 1 := (fun x v => Host.reduce IntOp.andi x v reducesTo_S4x800000_S_d0_1 h_S_) main_v6 main_c_1
  let main_v8 : IVec S_ 1 := andi main_v3 main_v7
  let main_v9 : FVec F S64x64 .f32 := Host.absf main_arg4
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg5
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_v13 main_v16
-- ==== Kernel.lean ====
abbrev S50000x4x64 : Shape := ⟨3, ![50000, 4, 64]⟩
abbrev S4x800000 : Shape := ⟨2, ![4, 800000]⟩
abbrev S800000 : Shape := ⟨1, ![800000]⟩
abbrev S64x64 : Shape := ⟨2, ![64, 64]⟩
abbrev S64 : Shape := ⟨1, ![64]⟩
abbrev S_ : Shape := ⟨0, ![]⟩
abbrev S800000x1 : Shape := ⟨2, ![800000, 1]⟩
abbrev S800000x4x64 : Shape := ⟨3, ![800000, 4, 64]⟩
abbrev S800000x4 : Shape := ⟨2, ![800000, 4]⟩
abbrev S3200x4x64 : Shape := ⟨3, ![3200, 4, 64]⟩
abbrev S3200x4 : Shape := ⟨2, ![3200, 4]⟩
abbrev S3200x4x1 : Shape := ⟨3, ![3200, 4, 1]⟩
abbrev S200000x64 : Shape := ⟨2, ![200000, 64]⟩
abbrev S10000x64 : Shape := ⟨2, ![10000, 64]⟩
abbrev S1x64 : Shape := ⟨2, ![1, 64]⟩

abbrev nBuf : Space → Nat
  | .hbm => 25
  | .vmem => 12
  | .smem => 0
  | _ => 0

abbrev bufTy : (tb : Table) → Fin (tcTables nBuf tb) → BufTy
  | .hbm, ⟨0, _⟩ => ⟨S50000x4x64, .f32⟩
  | .hbm, ⟨1, _⟩ => ⟨S4x800000, .f32⟩
  | .hbm, ⟨2, _⟩ => ⟨S800000, .i32⟩
  | .hbm, ⟨3, _⟩ => ⟨S800000, .i32⟩
  | .hbm, ⟨4, _⟩ => ⟨S64x64, .f32⟩
  | .hbm, ⟨5, _⟩ => ⟨S64, .f32⟩
  | .hbm, ⟨6, _⟩ => ⟨S_, .i32⟩
  | .hbm, ⟨7, _⟩ => ⟨S800000, .i32⟩
  | .hbm, ⟨8, _⟩ => ⟨S800000, .i1⟩
  | .hbm, ⟨9, _⟩ => ⟨S_, .i32⟩
  | .hbm, ⟨10, _⟩ => ⟨S800000, .i32⟩
  | .hbm, ⟨11, _⟩ => ⟨S800000, .i32⟩
  | .hbm, ⟨12, _⟩ => ⟨S800000, .i32⟩
  | .hbm, ⟨13, _⟩ => ⟨S800000x1, .i32⟩
  | .hbm, ⟨14, _⟩ => ⟨S800000x4x64, .f32⟩
  | .hbm, ⟨15, _⟩ => ⟨S800000x4, .f32⟩
  | .hbm, ⟨16, _⟩ => ⟨S800000x4x64, .f32⟩
  | .hbm, ⟨17, _⟩ => ⟨S_, .f32⟩
  | .hbm, ⟨18, _⟩ => ⟨S50000x4x64, .f32⟩
  | .hbm, ⟨19, _⟩ => ⟨S800000x1, .i32⟩
  | .hbm, ⟨20, _⟩ => ⟨S50000x4x64, .f32⟩
  | .hbm, ⟨21, _⟩ => ⟨S200000x64, .f32⟩
  | .hbm, ⟨22, _⟩ => ⟨S64x64, .f32⟩
  | .hbm, ⟨23, _⟩ => ⟨S200000x64, .f32⟩
  | .hbm, ⟨24, _⟩ => ⟨S50000x4x64, .f32⟩
  | .local _ .vmem, ⟨0, _⟩ => ⟨S3200x4x64, .f32⟩
  | .local _ .vmem, ⟨1, _⟩ => ⟨S3200x4x64, .f32⟩
  | .local _ .vmem, ⟨2, _⟩ => ⟨S3200x4, .f32⟩
  | .local _ .vmem, ⟨3, _⟩ => ⟨S3200x4, .f32⟩
  | .local _ .vmem, ⟨4, _⟩ => ⟨S3200x4x64, .f32⟩
  | .local _ .vmem, ⟨5, _⟩ => ⟨S3200x4x64, .f32⟩
  | .local _ .vmem, ⟨6, _⟩ => ⟨S10000x64, .f32⟩
  | .local _ .vmem, ⟨7, _⟩ => ⟨S10000x64, .f32⟩
  | .local _ .vmem, ⟨8, _⟩ => ⟨S64x64, .f32⟩
  | .local _ .vmem, ⟨9, _⟩ => ⟨S64, .f32⟩
  | .local _ .vmem, ⟨10, _⟩ => ⟨S10000x64, .f32⟩
  | .local _ .vmem, ⟨11, _⟩ => ⟨S10000x64, .f32⟩
  | _, _ => ⟨S50000x4x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_c_0 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_cst : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![250], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3200x4x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3200x4 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3200x4x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S64x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S64 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S10000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  bcast_S_S800000 : S_.BroadcastsInDim S800000 (![] : Fin 0 → Fin S800000.rank)
  bcast_S800000_S800000x1_0 : S800000.BroadcastsInDim S800000x1 (![0] : Fin 1 → Fin S800000x1.rank)
  transposes_S4x800000_S800000x4_1_0 : S4x800000.Transposes [1, 0] S800000x4
  inb_S3200x4x64_S3200x4x64_0_0_0 : ∀ a, (![0, 0, 0] : Fin 3 → Nat) a + S3200x4x64.size a ≤ S3200x4x64.size a
  h_S3200x4x64 : 0 < S3200x4x64.numel
  shapeCasts_S3200x4x64_S3200x4x64 : S3200x4x64.ShapeCasts S3200x4x64
  inb_S3200x4_S3200x4_0_0 : ∀ a, (![0, 0] : Fin 2 → Nat) a + S3200x4.size a ≤ S3200x4.size a
  h_S3200x4 : 0 < S3200x4.numel
  shapeCasts_S3200x4_S3200x4 : S3200x4.ShapeCasts S3200x4
  shapeCasts_S3200x4_S3200x4x1 : S3200x4.ShapeCasts S3200x4x1
  broadcasts_S3200x4x1_S3200x4x64 : S3200x4x1.Broadcasts S3200x4x64
  bcast_S_S50000x4x64 : S_.BroadcastsInDim S50000x4x64 (![] : Fin 0 → Fin S50000x4x64.rank)
  shapeCasts_S50000x4x64_S200000x64 : S50000x4x64.ShapeCasts S200000x64
  transposes_S64x64_S64x64_1_0 : S64x64.Transposes [1, 0] S64x64
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  shapeCasts_S64x64_S64x64 : S64x64.ShapeCasts S64x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  shapeCasts_S200000x64_S50000x4x64 : S200000x64.ShapeCasts S50000x4x64
  gather_S50000x4x64_S800000x1_S800000x4x64_12_0_n_n_0_1_1464_wf : GatherDims.WF S50000x4x64 S800000x1 S800000x4x64 [1, 2] [0] [] [0] [] 1 ![1, 4, 64]
  scatter_S50000x4x64_S800000x1_S800000x4x64_12_0_0_1_wf : ScatterDims.WF S50000x4x64 S800000x1 S800000x4x64 [1, 2] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3200x4x64.size a ≤ S800000x4x64.size a
  hwx0_0 : ∀ i : grid0.Coords, EltTy.bits .f32 = 32 ∨ (Rect.block (s := S800000x4x64) S3200x4x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3200x4.size a ≤ S800000x4.size a
  hwx0_1 : ∀ i : grid0.Coords, EltTy.bits .f32 = 32 ∨ (Rect.block (s := S800000x4) S3200x4.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3200x4x64.size a ≤ S800000x4x64.size a
  hwx0_2 : ∀ i : grid0.Coords, EltTy.bits .f32 = 32 ∨ (Rect.block (s := S800000x4x64) S3200x4x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S200000x64.size a
  hwx1_0 : ∀ i : grid1.Coords, EltTy.bits .f32 = 32 ∨ (Rect.block (s := S200000x64) S10000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S64x64.size a ≤ S64x64.size a
  hwx1_1 : ∀ i : grid1.Coords, EltTy.bits .f32 = 32 ∨ (Rect.block (s := S64x64) S64x64.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S64.size a ≤ S64.size a
  hwx1_2 : ∀ i : grid1.Coords, EltTy.bits .f32 = 32 ∨ (Rect.block (s := S64) S64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S10000x64.size a ≤ S200000x64.size a
  hwx1_3 : ∀ i : grid1.Coords, EltTy.bits .f32 = 32 ∨ (Rect.block (s := S200000x64) S10000x64.size (cc1_transform_3 i) (hinb1_3 i)).WholeWords (EltTy.packing .f32)

variable [Facts₀]

def gather_S50000x4x64_S800000x1_S800000x4x64_12_0_n_n_0_1_1464 : GatherDims S50000x4x64 S800000x1 S800000x4x64 where
  offsetDims := [1, 2]
  collapsedSliceDims := [0]
  operandBatchingDims := []
  startIndicesBatchingDims := []
  startIndexMap := [0]
  indexVectorDim := 1
  sliceSizes := ![1, 4, 64]
  wf := gather_S50000x4x64_S800000x1_S800000x4x64_12_0_n_n_0_1_1464_wf
def scatter_S50000x4x64_S800000x1_S800000x4x64_12_0_0_1 : ScatterDims S50000x4x64 S800000x1 S800000x4x64 where
  updateWindowDims := [1, 2]
  insertedWindowDims := [0]
  scatterDimsToOperandDims := [0]
  indexVectorDim := 1
  wf := scatter_S50000x4x64_S800000x1_S800000x4x64_12_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_v6) S3200x4x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S3200x4.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v8) S3200x4x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v12) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v13) S64x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S64.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v14) S10000x64.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S50000x4x64 : Shape := ⟨3, ![50000, 4, 64]⟩
abbrev S4x800000 : Shape := ⟨2, ![4, 800000]⟩
abbrev S800000 : Shape := ⟨1, ![800000]⟩
abbrev S64x64 : Shape := ⟨2, ![64, 64]⟩
abbrev S64 : Shape := ⟨1, ![64]⟩
abbrev S800000x4 : Shape := ⟨2, ![800000, 4]⟩
abbrev S800000x4x1 : Shape := ⟨3, ![800000, 4, 1]⟩
abbrev S_ : Shape := ⟨0, ![]⟩
abbrev S800000x1 : Shape := ⟨2, ![800000, 1]⟩
abbrev S800000x4x64 : Shape := ⟨3, ![800000, 4, 64]⟩
abbrev S1x1x64 : Shape := ⟨3, ![1, 1, 64]⟩

abbrev nBuf : Space → Nat
  | .hbm => 27
  | .vmem => 0
  | .smem => 0
  | _ => 0

abbrev bufTy : (tb : Table) → Fin (tcTables nBuf tb) → BufTy
  | .hbm, ⟨0, _⟩ => ⟨S50000x4x64, .f32⟩
  | .hbm, ⟨1, _⟩ => ⟨S4x800000, .f32⟩
  | .hbm, ⟨2, _⟩ => ⟨S800000, .i32⟩
  | .hbm, ⟨3, _⟩ => ⟨S800000, .i32⟩
  | .hbm, ⟨4, _⟩ => ⟨S64x64, .f32⟩
  | .hbm, ⟨5, _⟩ => ⟨S64, .f32⟩
  | .hbm, ⟨6, _⟩ => ⟨S800000x4, .f32⟩
  | .hbm, ⟨7, _⟩ => ⟨S800000x4x1, .f32⟩
  | .hbm, ⟨8, _⟩ => ⟨S_, .i32⟩
  | .hbm, ⟨9, _⟩ => ⟨S800000, .i32⟩
  | .hbm, ⟨10, _⟩ => ⟨S800000, .i1⟩
  | .hbm, ⟨11, _⟩ => ⟨S_, .i32⟩
  | .hbm, ⟨12, _⟩ => ⟨S800000, .i32⟩
  | .hbm, ⟨13, _⟩ => ⟨S800000, .i32⟩
  | .hbm, ⟨14, _⟩ => ⟨S800000, .i32⟩
  | .hbm, ⟨15, _⟩ => ⟨S800000x1, .i32⟩
  | .hbm, ⟨16, _⟩ => ⟨S800000x4x64, .f32⟩
  | .hbm, ⟨17, _⟩ => ⟨S800000x4x64, .f32⟩
  | .hbm, ⟨18, _⟩ => ⟨S800000x4x64, .f32⟩
  | .hbm, ⟨19, _⟩ => ⟨S_, .f32⟩
  | .hbm, ⟨20, _⟩ => ⟨S50000x4x64, .f32⟩
  | .hbm, ⟨21, _⟩ => ⟨S800000x1, .i32⟩
  | .hbm, ⟨22, _⟩ => ⟨S50000x4x64, .f32⟩
  | .hbm, ⟨23, _⟩ => ⟨S50000x4x64, .f32⟩
  | .hbm, ⟨24, _⟩ => ⟨S1x1x64, .f32⟩
  | .hbm, ⟨25, _⟩ => ⟨S50000x4x64, .f32⟩
  | .hbm, ⟨26, _⟩ => ⟨S50000x4x64, .f32⟩
  | _, _ => ⟨S50000x4x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_c : Ref sig .tc := ⟨.hbm, 8, rfl⟩
abbrev main_v2 : Ref sig .tc := ⟨.hbm, 9, rfl⟩
abbrev main_v3 : Ref sig .tc := ⟨.hbm, 10, rfl⟩
abbrev main_c_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  transposes_S4x800000_S800000x4_1_0 : S4x800000.Transposes [1, 0] S800000x4
  bcast_S800000x4_S800000x4x1_0_1 : S800000x4.BroadcastsInDim S800000x4x1 (![0, 1] : Fin 2 → Fin S800000x4x1.rank)
  bcast_S_S800000 : S_.BroadcastsInDim S800000 (![] : Fin 0 → Fin S800000.rank)
  bcast_S800000_S800000x1_0 : S800000.BroadcastsInDim S800000x1 (![0] : Fin 1 → Fin S800000x1.rank)
  bcast_S800000x4x1_S800000x4x64_0_1_2 : S800000x4x1.BroadcastsInDim S800000x4x64 (![0, 1, 2] : Fin 3 → Fin S800000x4x64.rank)
  bcast_S_S50000x4x64 : S_.BroadcastsInDim S50000x4x64 (![] : Fin 0 → Fin S50000x4x64.rank)
  bcast_S64_S1x1x64_2 : S64.BroadcastsInDim S1x1x64 (![2] : Fin 1 → Fin S1x1x64.rank)
  bcast_S1x1x64_S50000x4x64_0_1_2 : S1x1x64.BroadcastsInDim S50000x4x64 (![0, 1, 2] : Fin 3 → Fin S50000x4x64.rank)
  gather_S50000x4x64_S800000x1_S800000x4x64_12_0_n_n_0_1_1464_wf : GatherDims.WF S50000x4x64 S800000x1 S800000x4x64 [1, 2] [0] [] [0] [] 1 ![1, 4, 64]
  scatter_S50000x4x64_S800000x1_S800000x4x64_12_0_0_1_wf : ScatterDims.WF S50000x4x64 S800000x1 S800000x4x64 [1, 2] [0] [0] 1
  dot_S50000x4x64_S64x64_S50000x4x64_2_1_01_0_n_n_wf : DotDims.WF S50000x4x64 S64x64 S50000x4x64 [2] [1] [0, 1] [0] [] []

variable [Facts₀]

def gather_S50000x4x64_S800000x1_S800000x4x64_12_0_n_n_0_1_1464 : GatherDims S50000x4x64 S800000x1 S800000x4x64 where
  offsetDims := [1, 2]
  collapsedSliceDims := [0]
  operandBatchingDims := []
  startIndicesBatchingDims := []
  startIndexMap := [0]
  indexVectorDim := 1
  sliceSizes := ![1, 4, 64]
  wf := gather_S50000x4x64_S800000x1_S800000x4x64_12_0_n_n_0_1_1464_wf
def scatter_S50000x4x64_S800000x1_S800000x4x64_12_0_0_1 : ScatterDims S50000x4x64 S800000x1 S800000x4x64 where
  updateWindowDims := [1, 2]
  insertedWindowDims := [0]
  scatterDimsToOperandDims := [0]
  indexVectorDim := 1
  wf := scatter_S50000x4x64_S800000x1_S800000x4x64_12_0_0_1_wf
def dot_S50000x4x64_S64x64_S50000x4x64_2_1_01_0_n_n : DotDims S50000x4x64 S64x64 S50000x4x64 where
  lhsContracting := [2]
  rhsContracting := [1]
  lhsNonContracting := [0, 1]
  rhsNonContracting := [0]
  lhsBatch := []
  rhsBatch := []
  wf := dot_S50000x4x64_S64x64_S50000x4x64_2_1_01_0_n_n_wf

class Facts : Prop extends Facts₀ where

variable [Facts]
-- ==== Proof.KernelRun.lean ====
/-
  The kernel program's run with its result named.

  The program is three stretches of host operations around two regions. The generated frame follows the buffers'
  contents through the five segments — `W0` at launch, `W1` after the first stretch, `W2` after the first region,
  `W3`, `W4`, and `W5` at the return — and reads the six argument buffers back from the last thread state, which
  holds every unscoped buffer at `W5`. The result buffer is one of those buffers, so the same launch, read at the
  result buffer as well, says that every weakly fair execution ends with the result at `W5`'s contents there and the
  arguments as launched.
-/
import proofs.«141694_j38465727103769_2_alg».proof.Proof.Gen.KernelIdeal.Frame

set_option maxRecDepth 16384

noncomputable section

namespace Cert.GraphConv.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument buffers as launched. -/
theorem run_named : θ_run defs (onTc (τ := τ) (main (F := F))) ⟨m, fun _ => 0, ρ⟩ (fun r => ∀ c : Dev nD,
      r.2.mem ((c.tc : Thread nD τ).loc main_v15) = W5 m ρ c (Proc.devRef .tc main_v15)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v15 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c)⟩)

end Cert.GraphConv.Run

end
-- ==== Proof.LibPlainMatmul.lean ====
/-
  A plain matrix product `M × K` by `K × N` (the left operand contracted on its last axis, the right on its first, no
  batch axis) accumulated into the zero splat, read at coordinates at the ideal values: entry (p, q) of the product is
  `∑ k, lhs (p, k) · rhs (k, q)` over the `K` positions of the contracted axis, a sum indexed by `Fin K`. Nothing of
  real arithmetic is used beyond `0 + x = x`, so it holds at the infinities too.
-/
import Idealize.ShloMosaic.Lib.ValueIdx
import Idealize.ShloMosaic.PureOps.Ideal.Laws

namespace Cert.PlainMatmul

open Idealize.ShloMosaic Idealize.ShloMosaic.ValueIdx

/-- The contraction index of a plain product is its one coordinate. -/
abbrev contrFin (M K N : ℕ) : (DotDims.plain M K N).contr.Idx ≃ Fin K :=
  contrEquiv1 (DotDims.plain M K N) K rfl rfl

/-- The left operand is read at (row of the result, contraction position). -/
theorem lhsIdx_plain (M K N : ℕ) (p : Fin M) (q : Fin N) (k : Fin K) :
    (DotDims.plain M K N).lhsIdx (ix2 p q) ((contrFin M K N).symm k) = ix2 p k := by
  funext a
  apply Fin.ext
  match a with
  | ⟨0, _⟩ => rfl
  | ⟨1, _⟩ => exact contrEquiv1_symm_val (DotDims.plain M K N) K rfl rfl k

/-- The right operand is read at (contraction position, column of the result). -/
theorem rhsIdx_plain (M K N : ℕ) (p : Fin M) (q : Fin N) (k : Fin K) :
    (DotDims.plain M K N).rhsIdx (ix2 p q) ((contrFin M K N).symm k) = ix2 k q := by
  funext a
  apply Fin.ext
  match a with
  | ⟨0, _⟩ => exact contrEquiv1_symm_val (DotDims.plain M K N) K rfl rfl k
  | ⟨1, _⟩ => rfl

/-- Entry (p, q) of a plain product into the zero splat is the sum over the contracted axis of the operands' products. -/
theorem matmul_zero_apply {φ₁ φ₂ : FTy} (M K N : ℕ) (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply, ← Equiv.sum_comp (contrFin M K N).symm]
  exact Finset.sum_congr rfl fun k _ => by rw [lhsIdx_plain, rhsIdx_plain]

end Cert.PlainMatmul
-- ==== Proof.Payload.lean ====
/-
  What the two kernel bodies store, read at coordinates on the extended reals.

  The first body multiplies a block of gathered features, [3200, 4, 64], by its block of edge weights, [3200, 4],
  the weights first given a trailing unit axis and repeated along the 64 features: entry (e, t, f) of what it
  stores is weight (e, t) times feature (e, t, f).

  The second body multiplies a block of 10000 rows of 64 aggregated features by the 64 × 64 transposed weight
  matrix, both first narrowed to a shorter float format (the identity on the extended reals), accumulating from the
  zero splat, and adds the bias repeated along the rows: entry (p, q) is Σ_k rows (p, k) · weights (k, q) + bias q.
-/
import proofs.«141694_j38465727103769_2_alg».proof.Proof.Gen.KernelIdeal.Skeleton
import proofs.«141694_j38465727103769_2_alg».proof.Proof.LibPlainMatmul
import Idealize.ShloMosaic.Lib.Pipeline.Value
import Idealize.ShloMosaic.Lib.ValueIdx

noncomputable section

namespace Cert.GraphConv

open Idealize.ShloMosaic Idealize.ShloMosaic.ValueIdx Cert.KernelIdeal Cert.KernelIdeal.Gen

/-- A [3200, 4] block given a trailing unit axis and repeated along 64 features reads (e, t) at (e, t, f). -/
theorem weightCol_apply (w : S3200x4.Idx → EReal) (e : Fin 3200) (t : Fin 4) (f : Fin 64) :
    broadcastTo S3200x4x64 (shapeCast S3200x4x1 w shapeCasts_S3200x4_S3200x4x1) broadcasts_S3200x4x1_S3200x4x64 (ix3 e t f)
      = w (ix2 e t) := by
  refine (broadcastTo_apply _ _ (ix3 e t f) (ix3 e t (0 : Fin 1)) (fun a => ?_)).trans ?_
  · match a with
    | ⟨0, _⟩ => rfl
    | ⟨1, _⟩ => rfl
    | ⟨2, _⟩ => rfl
  · refine shapeCast_apply _ _ (ix3 e t (0 : Fin 1)) (ix2 e t) ?_
    rw [Shape.rowMajor_val_two, Shape.rowMajor_val_three]
    show e.val * 4 + t.val = (e.val * 4 + t.val) * 1 + 0
    omega

/-- The first body's stored value at (e, t, f): weight (e, t) times feature (e, t, f). -/
theorem pay0_apply (x0 : Vec Ideal S3200x4x64 .f32) (x1 : Vec Ideal S3200x4 .f32) (e : Fin 3200) (t : Fin 4) (f : Fin 64) :
    k0_pay1 (F := Ideal) x0 x1 (ix3 e t f) = x1 (ix2 e t) * x0 (ix3 e t f) := by
  unfold k0_pay1
  rw [mulf_apply, shapeCast_self, shapeCast_self, weightCol_apply]

/-- A vector of 64 entries given a leading unit axis and repeated along 10000 rows reads entry q at (p, q). -/
theorem biasRow_apply (b : S64.Idx → EReal) (p : Fin 10000) (q : Fin 64) :
    broadcastTo S10000x64 (shapeCast S1x64 b shapeCasts_S64_S1x64) broadcasts_S1x64_S10000x64 (ix2 p q) = b (ix1 q) := by
  refine (broadcastTo_apply _ _ (ix2 p q) (ix2 (0 : Fin 1) q) (fun a => ?_)).trans ?_
  · match a with
    | ⟨0, _⟩ => rfl
    | ⟨1, _⟩ => rfl
  · refine shapeCast_apply _ _ (ix2 (0 : Fin 1) q) (ix1 q) ?_
    rw [Shape.rowMajor_val_one, Shape.rowMajor_val_two]
    show q.val = 0 * 64 + q.val
    omega

/-- The second body's stored value at (p, q): Σ_k rows (p, k) · weights (k, q) + bias q. -/
theorem pay1_apply (x0 : Vec Ideal S10000x64 .f32) (x1 : Vec Ideal S64x64 .f32) (x2 : Vec Ideal S64 .f32)
    (p : Fin 10000) (q : Fin 64) :
    k1_pay1 (F := Ideal) x0 x1 x2 (ix2 p q) = (∑ k : Fin 64, x0 (ix2 p k) * x1 (ix2 k q)) + x2 (ix1 q) := by
  unfold k1_pay1
  rw [addf_apply, biasRow_apply]
  refine congrArg (· + x2 (ix1 q)) ?_
  refine (Cert.PlainMatmul.matmul_zero_apply 10000 64 64 none _ _ p q).trans ?_
  refine Finset.sum_congr rfl fun k _ => ?_
  rw [truncf_apply, truncf_apply, shapeCast_self, shapeCast_self]

end Cert.GraphConv

end
-- ==== Proof.Spec.lean ====
/-
  The arithmetic of one weighted graph-convolution layer, on literal shapes and on the extended reals, away from
  any program.

  * `msgOf g w`: the message of edge `e` at time step `t` and feature `f` is the edge's weight `w (e, t)` times the
    gathered source feature `g (e, t, f)`.
  * `linOf h wt b`: the linear layer on the 200000 = 50000 · 4 rows (node, time step) of the aggregated features:
    entry (r, o) is `Σ_k h (r, k) · wt (k, o) + b o`, a sum over the 64 input features.
  * `outOf h W b`: the same layer on the three-axis array, with the weight matrix stored output-feature first:
    entry (n, t, o) is `Σ_k h (n, t, k) · W (o, k) + b o`.

  `linOf_rows` joins the last two: rows are nodes and time steps in row-major order, row 4·n + t is (n, t), and the
  transposed weight matrix read at (k, o) is `W (o, k)`. Only the reading of indices is used; no law of arithmetic.
-/
import Idealize.ShloMosaic.PureOps.Ideal
import Idealize.ShloMosaic.Lib.ValueIdx

noncomputable section

namespace Cert.GraphConv

open Idealize.ShloMosaic Idealize.ShloMosaic.ValueIdx

/-- Edge messages: weight (e, t) times gathered feature (e, t, f). -/
def msgOf (g : (⟨3, ![800000, 4, 64]⟩ : Shape).Idx → EReal) (w : (⟨2, ![800000, 4]⟩ : Shape).Idx → EReal) :
    (⟨3, ![800000, 4, 64]⟩ : Shape).Idx → EReal :=
  fun i => w (ix2 (n0 := 800000) (n1 := 4) (i 0) (i 1)) * g i

theorem msgOf_apply (g : (⟨3, ![800000, 4, 64]⟩ : Shape).Idx → EReal) (w : (⟨2, ![800000, 4]⟩ : Shape).Idx → EReal)
    (e : Fin 800000) (t : Fin 4) (f : Fin 64) : msgOf g w (ix3 e t f) = w (ix2 e t) * g (ix3 e t f) := rfl

/-- A product weight · feature whose two factors are read at edge `E`, time step `s` (and feature `f`) is the message
    at (E, s, f): the form in which a block of messages meets the whole array, the three indices being where a
    block's entry sits in the two input arrays and in the output array. -/
theorem msgOf_block (g : (⟨3, ![800000, 4, 64]⟩ : Shape).Idx → EReal) (w : (⟨2, ![800000, 4]⟩ : Shape).Idx → EReal)
    (i0 i2 : (⟨3, ![800000, 4, 64]⟩ : Shape).Idx) (i1 : (⟨2, ![800000, 4]⟩ : Shape).Idx)
    (E : Fin 800000) (s : Fin 4) (f : Fin 64) (h0 : i0 = ix3 E s f) (h1 : i1 = ix2 E s) (h2 : i2 = ix3 E s f) :
    w i1 * g i0 = msgOf g w i2 := by
  subst h0 h1 h2; rfl

/-- The linear layer on rows: entry (r, o) is Σ_k h (r, k) · wt (k, o) + b o. -/
def linOf (h : (⟨2, ![200000, 64]⟩ : Shape).Idx → EReal) (wt : (⟨2, ![64, 64]⟩ : Shape).Idx → EReal)
    (b : (⟨1, ![64]⟩ : Shape).Idx → EReal) : (⟨2, ![200000, 64]⟩ : Shape).Idx → EReal :=
  fun i => (∑ k : Fin 64, h (ix2 (n0 := 200000) (n1 := 64) (i 0) k) * wt (ix2 (n0 := 64) (n1 := 64) k (i 1)))
    + b (ix1 (n := 64) (i 1))

theorem linOf_apply (h : (⟨2, ![200000, 64]⟩ : Shape).Idx → EReal) (wt : (⟨2, ![64, 64]⟩ : Shape).Idx → EReal)
    (b : (⟨1, ![64]⟩ : Shape).Idx → EReal) (r : Fin 200000) (o : Fin 64) :
    linOf h wt b (ix2 r o) = (∑ k : Fin 64, h (ix2 r k) * wt (ix2 k o)) + b (ix1 o) := rfl

/-- A sum Σ_k rows · weights plus a bias entry whose factors are read at row `R`, column `q` is the row layer at
    (R, q): the form in which a block of the layer meets the whole array. -/
theorem linOf_block (h : (⟨2, ![200000, 64]⟩ : Shape).Idx → EReal) (wt : (⟨2, ![64, 64]⟩ : Shape).Idx → EReal)
    (b : (⟨1, ![64]⟩ : Shape).Idx → EReal) (i0 : Fin 64 → (⟨2, ![200000, 64]⟩ : Shape).Idx)
    (i1 : Fin 64 → (⟨2, ![64, 64]⟩ : Shape).Idx) (i2 : (⟨1, ![64]⟩ : Shape).Idx) (i3 : (⟨2, ![200000, 64]⟩ : Shape).Idx)
    (R : Fin 200000) (q : Fin 64) (h0 : ∀ k, i0 k = ix2 R k) (h1 : ∀ k, i1 k = ix2 k q) (h2 : i2 = ix1 q)
    (h3 : i3 = ix2 R q) :
    (∑ k : Fin 64, h (i0 k) * wt (i1 k)) + b i2 = linOf h wt b i3 := by
  subst h2 h3
  rw [linOf_apply]
  refine congrArg (· + b (ix1 q)) (Finset.sum_congr rfl fun k _ => ?_)
  rw [h0 k, h1 k]

/-- The linear layer on the three-axis array, the weights stored output-feature first:
    entry (n, t, o) is Σ_k h (n, t, k) · W (o, k) + b o. -/
def outOf (h : (⟨3, ![50000, 4, 64]⟩ : Shape).Idx → EReal) (W : (⟨2, ![64, 64]⟩ : Shape).Idx → EReal)
    (b : (⟨1, ![64]⟩ : Shape).Idx → EReal) : (⟨3, ![50000, 4, 64]⟩ : Shape).Idx → EReal :=
  fun i => (∑ k : Fin 64, h (ix3 (n0 := 50000) (n1 := 4) (n2 := 64) (i 0) (i 1) k) * W (ix2 (n0 := 64) (n1 := 64) (i 2) k))
    + b (ix1 (n := 64) (i 2))

theorem outOf_apply (h : (⟨3, ![50000, 4, 64]⟩ : Shape).Idx → EReal) (W : (⟨2, ![64, 64]⟩ : Shape).Idx → EReal)
    (b : (⟨1, ![64]⟩ : Shape).Idx → EReal) (n : Fin 50000) (t : Fin 4) (o : Fin 64) :
    outOf h W b (ix3 n t o) = (∑ k : Fin 64, h (ix3 n t k) * W (ix2 o k)) + b (ix1 o) := rfl

/-- Row 4·n + t of the row form is (n, t) of the three-axis form: if the rows `h2` read the array `h` in row-major
    order and `wt` is `W` transposed, the row layer at (4·n + t, o) is the three-axis layer at (n, t, o). -/
theorem linOf_rows (h : (⟨3, ![50000, 4, 64]⟩ : Shape).Idx → EReal) (h2 : (⟨2, ![200000, 64]⟩ : Shape).Idx → EReal)
    (W wt : (⟨2, ![64, 64]⟩ : Shape).Idx → EReal) (b : (⟨1, ![64]⟩ : Shape).Idx → EReal)
    (hh : ∀ (n : Fin 50000) (t : Fin 4) (k : Fin 64) (r : Fin 200000), r.val = 4 * n.val + t.val → h2 (ix2 r k) = h (ix3 n t k))
    (hw : ∀ k o : Fin 64, wt (ix2 k o) = W (ix2 o k))
    (n : Fin 50000) (t : Fin 4) (o : Fin 64) (r : Fin 200000) (hr : r.val = 4 * n.val + t.val) :
    linOf h2 wt b (ix2 r o) = outOf h W b (ix3 n t o) := by
  rw [linOf_apply, outOf_apply]
  refine congrArg (· + b (ix1 o)) (Finset.sum_congr rfl fun k _ => ?_)
  rw [hh n t k r hr, hw k o]

end Cert.GraphConv

end
-- ==== Proof.Region0.lean ====
/-
  The first region's output array, whole.

  The region walks the 800000 edges in 250 blocks of 3200; block `t` of each of its three windows starts at edge
  3200 · t and spans every time step and feature. At block `t` the body stores weight (e, s) · feature (e, s, f) of
  its two input blocks, so what it writes back is block `t` of the whole-array message function `msgOf` of the two
  input arrays. The 250 blocks cover the edge axis (edge `e` lies in block `e / 3200`), so the output array ends
  holding `msgOf` of the input arrays as the region found them, whatever those are.
-/
import proofs.«141694_j38465727103769_2_alg».proof.Proof.Gen.KernelIdeal.Frame
import proofs.«141694_j38465727103769_2_alg».proof.Proof.Payload
import proofs.«141694_j38465727103769_2_alg».proof.Proof.Spec
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.GraphConv.Region0

open Cert.KernelIdeal Cert.KernelIdeal.Gen Cert.GraphConv

variable (V : (c : Dev nD) → (b : Ref sig .tc) → Buf (Elt Ideal) ((c : Thread nD τ).loc b))

theorem zeros3 : (![0, 0, 0] : Fin 3 → Nat) = fun _ => 0 := funext fun a => by fin_cases a <;> rfl
theorem zeros2 : (![0, 0] : Fin 2 → Nat) = fun _ => 0 := funext fun a => by fin_cases a <;> rfl

/-- Block `t` of every window is edge block `t`: block index `t` on the edge axis, 0 on the others. -/
theorem blockIdx : ∀ t : Fin cfg0.N,
    win0_0.index t (0 : Fin 3) = t.val ∧ win0_0.index t (1 : Fin 3) = 0 ∧ win0_0.index t (2 : Fin 3) = 0
    ∧ win0_1.index t (0 : Fin 2) = t.val ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- What point `t` writes back is block `t` of the message function of the two input arrays. -/
theorem flushed_eq (c : Dev nD) (t : Fin cfg0.N) :
    (dat0 V c).flushed 2 t = ((cfg0.win 2).blk t).view.read (Elt Ideal) (msgOf (V c main_v6) (V c main_v7)) := by
  show (cfg0.win 2).cut (grid0.coords t) ((dat0 V c).after 2 t) = _
  rw [after0_2]
  unfold out0_2
  rw [View.canon_unit_zero zeros3]
  simp only [View.ld_unit_zero (S := S3200x4x64) zeros3, View.ld_unit_zero (S := S3200x4) zeros2]
  obtain ⟨e0, e1, e2, e3, e4, e5, e6, e7⟩ := blockIdx t
  have ht : t.val < 250 := Nat.lt_of_lt_of_eq t.isLt N_0
  funext j
  obtain ⟨e, s, f, rfl⟩ : ∃ (e : Fin 3200) (s : Fin 4) (f : Fin 64), j = ix3 e s f := ⟨j 0, j 1, j 2, eq_ix3 j⟩
  refine (pay0_apply (iblk0 V c 0 t) (iblk0 V c 1 t) e s f).trans ?_
  have h0 : ((cfg0.win 0).blk t).view.emb (ix3 e s f) = ix3 (⟨t.val * 3200 + e.val, by omega⟩ : Fin 800000) s f := by
    funext a; apply Fin.ext
    match a with
    | ⟨0, _⟩ => show win0_0.index t (0 : Fin 3) * 3200 + 1 * e.val = t.val * 3200 + e.val; omega
    | ⟨1, _⟩ => show win0_0.index t (1 : Fin 3) * 4 + 1 * s.val = s.val; omega
    | ⟨2, _⟩ => show win0_0.index t (2 : Fin 3) * 64 + 1 * f.val = f.val; omega
  have h1 : ((cfg0.win 1).blk t).view.emb (ix2 e s) = ix2 (⟨t.val * 3200 + e.val, by omega⟩ : Fin 800000) s := by
    funext a; apply Fin.ext
    match a with
    | ⟨0, _⟩ => show win0_1.index t (0 : Fin 2) * 3200 + 1 * e.val = t.val * 3200 + e.val; omega
    | ⟨1, _⟩ => show win0_1.index t (1 : Fin 2) * 4 + 1 * s.val = s.val; omega
  have h2 : ((cfg0.win 2).blk t).view.emb (ix3 e s f) = ix3 (⟨t.val * 3200 + e.val, by omega⟩ : Fin 800000) s f := by
    funext a; apply Fin.ext
    match a with
    | ⟨0, _⟩ => show win0_2.index t (0 : Fin 3) * 3200 + 1 * e.val = t.val * 3200 + e.val; omega
    | ⟨1, _⟩ => show win0_2.index t (1 : Fin 3) * 4 + 1 * s.val = s.val; omega
    | ⟨2, _⟩ => show win0_2.index t (2 : Fin 3) * 64 + 1 * f.val = f.val; omega
  exact msgOf_block (V c main_v6) (V c main_v7) (((cfg0.win 0).blk t).view.emb (ix3 e s f))
    (((cfg0.win 2).blk t).view.emb (ix3 e s f)) (((cfg0.win 1).blk t).view.emb (ix2 e s))
    (⟨t.val * 3200 + e.val, by omega⟩ : Fin 800000) s f h0 h1 h2

/-- An index of the output array is in point `t`'s block iff each coordinate is in the block's range on its axis. -/
theorem mem_blk (t : Fin cfg0.N) (i : S800000x4x64.Idx) :
    i ∈ ((cfg0.win 2).blk t).view.set ↔ ∀ a : Fin 3, win0_2.index t a * S3200x4x64.size a ≤ (i a).val
      ∧ (i a).val < win0_2.index t a * S3200x4x64.size a + S3200x4x64.size a := by
  show i ∈ ((View.whole main_v8).slice (win0_2.rect t)).set ↔ _
  rw [View.set_slice_whole, Rect.mem_set_unit]
  exact Iff.rfl

/-- Edge `e` lies in block `e / 3200`: the blocks cover the output array. -/
theorem cover (i : S800000x4x64.Idx) :
    ∃ t : Fin cfg0.N, (cfg0.win 2).flush t = true ∧ i ∈ ((cfg0.win 2).blk t).view.set := by
  have h0 : (i 0).val < 800000 := (i 0).isLt
  have h1 : (i 1).val < 4 := (i 1).isLt
  have h2 : (i 2).val < 64 := (i 2).isLt
  have hN : cfg0.N = 250 := N_0
  obtain ⟨t, ht⟩ : ∃ t : Fin cfg0.N, t.val = (i 0).val / 3200 := ⟨⟨(i 0).val / 3200, by rw [hN]; omega⟩, rfl⟩
  refine ⟨t, flush0_2 t, ?_⟩
  rw [mem_blk]
  obtain ⟨-, -, -, -, -, e5, e6, e7⟩ := blockIdx t
  intro a
  match a with
  | ⟨0, _⟩ =>
    show win0_2.index t (0 : Fin 3) * 3200 ≤ (i 0).val ∧ (i 0).val < win0_2.index t (0 : Fin 3) * 3200 + 3200
    omega
  | ⟨1, _⟩ =>
    show win0_2.index t (1 : Fin 3) * 4 ≤ (i 1).val ∧ (i 1).val < win0_2.index t (1 : Fin 3) * 4 + 4
    omega
  | ⟨2, _⟩ =>
    show win0_2.index t (2 : Fin 3) * 64 ≤ (i 2).val ∧ (i 2).val < win0_2.index t (2 : Fin 3) * 64 + 64
    omega

/-- The output array after the region: the messages of the two input arrays as the region found them. -/
theorem final (c : Dev nD) : (dat0 V c).arrAt 2 cfg0.N = msgOf (V c main_v6) (V c main_v7) :=
  (dat0 V c).arrAt_eq_of_cover 2 (msgOf (V c main_v6) (V c main_v7)) (fun t _ => flushed_eq V c t) cover

end Cert.GraphConv.Region0

end
-- ==== Proof.Region1.lean ====
/-
  The second region's output array, whole.

  The region walks the 200000 rows (node, time step) in 20 blocks of 10000; block `t` of the row windows (the
  aggregated features in, the result out) starts at row 10000 · t and spans the 64 columns, while the transposed
  weight matrix and the bias are each one block, the same at every point. At block `t` the body stores
  Σ_k rows (p, k) · weights (k, q) + bias q, so what it writes back is block `t` of the whole-array row layer
  `linOf` of the three input arrays. The 20 blocks cover the rows (row `r` lies in block `r / 10000`), so the
  output array ends holding `linOf` of the input arrays as the region found them, whatever those are.
-/
import proofs.«141694_j38465727103769_2_alg».proof.Proof.Gen.KernelIdeal.Frame
import proofs.«141694_j38465727103769_2_alg».proof.Proof.Payload
import proofs.«141694_j38465727103769_2_alg».proof.Proof.Spec
import Idealize.ShloMosaic.Lib.Pipeline.Value

noncomputable section

open Idealize.ShloMosaic Idealize.ShloMosaic.TcCoe Idealize.ShloMosaic.ValueIdx Idealize.SL.Sem
open Idealize.ShloMosaic.Pipeline (Dat)

namespace Cert.GraphConv.Region1

open Cert.KernelIdeal Cert.KernelIdeal.Gen Cert.GraphConv

variable (V : (c : Dev nD) → (b : Ref sig .tc) → Buf (Elt Ideal) ((c : Thread nD τ).loc b))

theorem zeros2 : (![0, 0] : Fin 2 → Nat) = fun _ => 0 := funext fun a => by fin_cases a <;> rfl
theorem zeros1 : (![0] : Fin 1 → Nat) = fun _ => 0 := funext fun a => by fin_cases a; rfl

/-- Block `t` of the row windows is row block `t`; the weights and the bias are block 0 at every point. -/
theorem blockIdx : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 1) = 0
    ∧ win1_3.index t (0 : Fin 2) = t.val ∧ win1_3.index t (1 : Fin 2) = 0 :=
  (by decide +kernel : ∀ t : Fin grid1.N, _)

/-- What point `t` writes back is block `t` of the row layer of the three input arrays. -/
theorem flushed_eq (c : Dev nD) (t : Fin cfg1.N) :
    (dat1 V c).flushed 3 t
      = ((cfg1.win 3).blk t).view.read (Elt Ideal) (linOf (V c main_v12) (V c main_v13) (V c main_arg5)) := by
  show (cfg1.win 3).cut (grid1.coords t) ((dat1 V c).after 3 t) = _
  rw [after1_3]
  unfold out1_3
  rw [View.canon_unit_zero zeros2]
  simp only [View.ld_unit_zero (S := S10000x64) zeros2, View.ld_unit_zero (S := S64x64) zeros2,
    View.ld_unit_zero (S := S64) zeros1]
  obtain ⟨e0, e1, e2, e3, e4, e5, e6⟩ := blockIdx t
  have ht : t.val < 20 := Nat.lt_of_lt_of_eq t.isLt N_1
  funext j
  obtain ⟨p, q, rfl⟩ : ∃ (p : Fin 10000) (q : Fin 64), j = ix2 p q := ⟨j 0, j 1, eq_ix2 j⟩
  refine (pay1_apply (iblk1 V c 0 t) (iblk1 V c 1 t) (iblk1 V c 2 t) p q).trans ?_
  have h0 : ∀ k : Fin 64, ((cfg1.win 0).blk t).view.emb (ix2 p k) = ix2 (⟨t.val * 10000 + p.val, by omega⟩ : Fin 200000) k := by
    intro k; funext a; apply Fin.ext
    match a with
    | ⟨0, _⟩ => show win1_0.index t (0 : Fin 2) * 10000 + 1 * p.val = t.val * 10000 + p.val; omega
    | ⟨1, _⟩ => show win1_0.index t (1 : Fin 2) * 64 + 1 * k.val = k.val; omega
  have h1 : ∀ k : Fin 64, ((cfg1.win 1).blk t).view.emb (ix2 k q) = ix2 k q := by
    intro k; funext a; apply Fin.ext
    match a with
    | ⟨0, _⟩ => show win1_1.index t (0 : Fin 2) * 64 + 1 * k.val = k.val; omega
    | ⟨1, _⟩ => show win1_1.index t (1 : Fin 2) * 64 + 1 * q.val = q.val; omega
  have h2 : ((cfg1.win 2).blk t).view.emb (ix1 q) = ix1 q := by
    funext a; apply Fin.ext
    match a with
    | ⟨0, _⟩ => show win1_2.index t (0 : Fin 1) * 64 + 1 * q.val = q.val; omega
  have h3 : ((cfg1.win 3).blk t).view.emb (ix2 p q) = ix2 (⟨t.val * 10000 + p.val, by omega⟩ : Fin 200000) q := by
    funext a; apply Fin.ext
    match a with
    | ⟨0, _⟩ => show win1_3.index t (0 : Fin 2) * 10000 + 1 * p.val = t.val * 10000 + p.val; omega
    | ⟨1, _⟩ => show win1_3.index t (1 : Fin 2) * 64 + 1 * q.val = q.val; omega
  exact linOf_block (V c main_v12) (V c main_v13) (V c main_arg5)
    (fun k => ((cfg1.win 0).blk t).view.emb (ix2 p k)) (fun k => ((cfg1.win 1).blk t).view.emb (ix2 k q))
    (((cfg1.win 2).blk t).view.emb (ix1 q)) (((cfg1.win 3).blk t).view.emb (ix2 p q))
    (⟨t.val * 10000 + p.val, by omega⟩ : Fin 200000) q h0 h1 h2 h3

/-- An index of the output array is in point `t`'s block iff each coordinate is in the block's range on its axis. -/
theorem mem_blk (t : Fin cfg1.N) (i : S200000x64.Idx) :
    i ∈ ((cfg1.win 3).blk t).view.set ↔ ∀ a : Fin 2, win1_3.index t a * S10000x64.size a ≤ (i a).val
      ∧ (i a).val < win1_3.index t a * S10000x64.size a + S10000x64.size a := by
  show i ∈ ((View.whole main_v14).slice (win1_3.rect t)).set ↔ _
  rw [View.set_slice_whole, Rect.mem_set_unit]
  exact Iff.rfl

/-- Row `r` lies in block `r / 10000`: the blocks cover the output array. -/
theorem cover (i : S200000x64.Idx) :
    ∃ t : Fin cfg1.N, (cfg1.win 3).flush t = true ∧ i ∈ ((cfg1.win 3).blk t).view.set := by
  have h0 : (i 0).val < 200000 := (i 0).isLt
  have h1 : (i 1).val < 64 := (i 1).isLt
  have hN : cfg1.N = 20 := N_1
  obtain ⟨t, ht⟩ : ∃ t : Fin cfg1.N, t.val = (i 0).val / 10000 := ⟨⟨(i 0).val / 10000, by rw [hN]; omega⟩, rfl⟩
  refine ⟨t, flush1_3 t, ?_⟩
  rw [mem_blk]
  obtain ⟨-, -, -, -, -, e5, e6⟩ := blockIdx t
  intro a
  match a with
  | ⟨0, _⟩ =>
    show win1_3.index t (0 : Fin 2) * 10000 ≤ (i 0).val ∧ (i 0).val < win1_3.index t (0 : Fin 2) * 10000 + 10000
    omega
  | ⟨1, _⟩ =>
    show win1_3.index t (1 : Fin 2) * 64 ≤ (i 1).val ∧ (i 1).val < win1_3.index t (1 : Fin 2) * 64 + 64
    omega

/-- The output array after the region: the row layer of the three input arrays as the region found them. -/
theorem final (c : Dev nD) : (dat1 V c).arrAt 3 cfg1.N = linOf (V c main_v12) (V c main_v13) (V c main_arg5) :=
  (dat1 V c).arrAt_eq_of_cover 3 (linOf (V c main_v12) (V c main_v13) (V c main_arg5)) (fun t _ => flushed_eq V c t) cover

end Cert.GraphConv.Region1

end
-- ==== Proof.Fold.lean ====
/-
  The kernel program's result as a function of its six arguments.

  Read from the return backwards through the program's segments:
  the result is the second region's output, [200000, 64], viewed as [50000, 4, 64];
  the second region's output is the row layer `linOf` of its three inputs (the region's whole-array value);
  its inputs are the aggregated features viewed as rows, the weight matrix transposed, and the bias;
  the aggregated features are the scatter-add, into zeros and along each edge's destination node, of the first
  region's output;
  the first region's output is the message function `msgOf` of its two inputs (that region's whole-array value);
  its inputs are the node features gathered at each edge's source node (a negative index wrapped by the number of
  nodes) and the edge weights transposed.
  No host operation and no region writes an argument, so each argument is read where it is used as launched.
  The gather and the scatter-add are carried as they stand: nothing here looks inside them.
-/
import proofs.«141694_j38465727103769_2_alg».proof.Proof.Gen.KernelIdeal.Frame
import proofs.«141694_j38465727103769_2_alg».proof.Proof.Region0
import proofs.«141694_j38465727103769_2_alg».proof.Proof.Region1
import Idealize.ShloMosaic.Lib.StableHlo.Run

noncomputable section

open Idealize.ShloMosaic Idealize.ShloMosaic.TcCoe Idealize.ShloMosaic.ValueIdx Idealize.SL.Sem Idealize.ShloMosaic.StableHlo

namespace Cert.GraphConv.Kernel

open Cert.KernelIdeal Cert.KernelIdeal.Gen Cert.GraphConv

/-- Each edge's source row as a column: a negative index is wrapped by the number of nodes. -/
def srcCol (x2 : (⟨S800000, .i32⟩ : BufTy).Contents (Elt Ideal)) : (⟨S800000x1, .i32⟩ : BufTy).Contents (Elt Ideal) :=
  broadcastInDim S800000x1 ![0] bcast_S800000_S800000x1_0
    (select (cmpi .slt x2 (broadcastInDim S800000 ![] bcast_S_S800000 (constantI S_ 32 0#32)))
      (addi x2 (broadcastInDim S800000 ![] bcast_S_S800000 (constantI S_ 32 50000#32))) x2)

/-- The aggregated features: the messages of every edge added into its destination node's row, from zeros. -/
def hidden (x0 : (⟨S50000x4x64, .f32⟩ : BufTy).Contents (Elt Ideal)) (x1 : (⟨S4x800000, .f32⟩ : BufTy).Contents (Elt Ideal))
    (x2 x3 : (⟨S800000, .i32⟩ : BufTy).Contents (Elt Ideal)) : (⟨S50000x4x64, .f32⟩ : BufTy).Contents (Elt Ideal) :=
  Host.scatterAdd scatter_S50000x4x64_S800000x1_S800000x4x64_12_0_0_1
    (broadcastInDim S50000x4x64 ![] bcast_S_S50000x4x64 (constant (F := Ideal) S_ .f32 0x00000000#32))
    (broadcastInDim S800000x1 ![0] bcast_S800000_S800000x1_0 x3)
    (msgOf (Host.gather gather_S50000x4x64_S800000x1_S800000x4x64_12_0_n_n_0_1_1464 x0 (srcCol x2))
      (transpose S800000x4 [1, 0] x1 transposes_S4x800000_S800000x4_1_0))

/-- The program's result: the row layer of the aggregated features viewed as rows, viewed back as three axes. -/
def out (x0 : (⟨S50000x4x64, .f32⟩ : BufTy).Contents (Elt Ideal)) (x1 : (⟨S4x800000, .f32⟩ : BufTy).Contents (Elt Ideal))
    (x2 x3 : (⟨S800000, .i32⟩ : BufTy).Contents (Elt Ideal)) (x4 : (⟨S64x64, .f32⟩ : BufTy).Contents (Elt Ideal))
    (x5 : (⟨S64, .f32⟩ : BufTy).Contents (Elt Ideal)) : (⟨S50000x4x64, .f32⟩ : BufTy).Contents (Elt Ideal) :=
  shapeCast S50000x4x64
    (linOf (shapeCast S200000x64 (hidden x0 x1 x2 x3) shapeCasts_S50000x4x64_S200000x64)
      (transpose S64x64 [1, 0] x4 transposes_S64x64_S64x64_1_0) x5)
    shapeCasts_S200000x64_S50000x4x64

variable (m : (ℓ : Loc nD τ sig) → Buf (Elt Ideal) ℓ) (ρ : Dev nD → PrngReg)

/-! ## The first stretch of host operations -/

theorem W1_arg3 (c : Dev nD) : W1 m ρ c (Proc.devRef .tc main_arg3) = m ((c : Thread nD τ).loc main_arg3) := by
  show StableHlo.after hostOps0 (W0 m ρ c) (Proc.devRef .tc main_arg3) = _
  after_results <;> rfl
theorem W1_arg4 (c : Dev nD) : W1 m ρ c (Proc.devRef .tc main_arg4) = m ((c : Thread nD τ).loc main_arg4) := by
  show StableHlo.after hostOps0 (W0 m ρ c) (Proc.devRef .tc main_arg4) = _
  after_results <;> rfl
theorem W1_arg5 (c : Dev nD) : W1 m ρ c (Proc.devRef .tc main_arg5) = m ((c : Thread nD τ).loc main_arg5) := by
  show StableHlo.after hostOps0 (W0 m ρ c) (Proc.devRef .tc main_arg5) = _
  after_results <;> rfl

/-- The first region's feature input: the node features gathered at the wrapped source rows. -/
theorem V1_v6 (c : Dev nD) : V1 m ρ c main_v6
    = Host.gather gather_S50000x4x64_S800000x1_S800000x4x64_12_0_n_n_0_1_1464 (m ((c : Thread nD τ).loc main_arg0))
        (srcCol (m ((c : Thread nD τ).loc main_arg2))) := by
  show StableHlo.after hostOps0 (W0 m ρ c) (Proc.devRef .tc main_v6) = _
  after_results <;> rfl

/-- The first region's weight input: the edge weights transposed. -/
theorem V1_v7 (c : Dev nD) : V1 m ρ c main_v7
    = transpose S800000x4 [1, 0] (m ((c : Thread nD τ).loc main_arg1)) transposes_S4x800000_S800000x4_1_0 := by
  show StableHlo.after hostOps0 (W0 m ρ c) (Proc.devRef .tc main_v7) = _
  after_results <;> rfl

/-! ## The first region -/

theorem W2_v8 (c : Dev nD) : W2 m ρ c (Proc.devRef .tc main_v8) = msgOf (V1 m ρ c main_v6) (V1 m ρ c main_v7) :=
  (W2_arr m ρ c 2).trans (Region0.final (V1 m ρ) c)
theorem W2_arg3 (c : Dev nD) : W2 m ρ c (Proc.devRef .tc main_arg3) = m ((c : Thread nD τ).loc main_arg3) :=
  (W2_of_ne m ρ c main_arg3 (by decide)).trans (W1_arg3 m ρ c)
theorem W2_arg4 (c : Dev nD) : W2 m ρ c (Proc.devRef .tc main_arg4) = m ((c : Thread nD τ).loc main_arg4) :=
  (W2_of_ne m ρ c main_arg4 (by decide)).trans (W1_arg4 m ρ c)
theorem W2_arg5 (c : Dev nD) : W2 m ρ c (Proc.devRef .tc main_arg5) = m ((c : Thread nD τ).loc main_arg5) :=
  (W2_of_ne m ρ c main_arg5 (by decide)).trans (W1_arg5 m ρ c)

/-! ## The second stretch of host operations -/

/-- The second region's row input: the scatter-add of the first region's output, viewed as rows. -/
theorem V3_v12 (c : Dev nD) : V3 m ρ c main_v12
    = shapeCast S200000x64
        (Host.scatterAdd scatter_S50000x4x64_S800000x1_S800000x4x64_12_0_0_1
          (broadcastInDim S50000x4x64 ![] bcast_S_S50000x4x64 (constant (F := Ideal) S_ .f32 0x00000000#32))
          (broadcastInDim S800000x1 ![0] bcast_S800000_S800000x1_0 (W2 m ρ c (Proc.devRef .tc main_arg3)))
          (W2 m ρ c (Proc.devRef .tc main_v8)))
        shapeCasts_S50000x4x64_S200000x64 := by
  show StableHlo.after hostOps1 (W2 m ρ c) (Proc.devRef .tc main_v12) = _
  after_results <;> rfl

/-- Its weight input: the weight matrix transposed. -/
theorem V3_v13 (c : Dev nD) : V3 m ρ c main_v13
    = transpose S64x64 [1, 0] (W2 m ρ c (Proc.devRef .tc main_arg4)) transposes_S64x64_S64x64_1_0 := by
  show StableHlo.after hostOps1 (W2 m ρ c) (Proc.devRef .tc main_v13) = _
  after_results <;> rfl

/-- Its bias input: the bias argument. -/
theorem V3_arg5 (c : Dev nD) : V3 m ρ c main_arg5 = W2 m ρ c (Proc.devRef .tc main_arg5) := by
  show StableHlo.after hostOps1 (W2 m ρ c) (Proc.devRef .tc main_arg5) = _
  after_results <;> rfl

/-! ## The second region and the last host operation -/

theorem W4_v14 (c : Dev nD) : W4 m ρ c (Proc.devRef .tc main_v14)
    = linOf (V3 m ρ c main_v12) (V3 m ρ c main_v13) (V3 m ρ c main_arg5) :=
  (W4_arr m ρ c 3).trans (Region1.final (V3 m ρ) c)

theorem W5_v15 (c : Dev nD) : W5 m ρ c (Proc.devRef .tc main_v15)
    = shapeCast S50000x4x64 (W4 m ρ c (Proc.devRef .tc main_v14)) shapeCasts_S200000x64_S50000x4x64 := by
  show StableHlo.after hostOps2 (W4 m ρ c) (Proc.devRef .tc main_v15) = _
  after_results <;> rfl

/-- The result buffer at the return is `out` of the six arguments as launched. -/
theorem W5_result (c : Dev nD) : W5 m ρ c (Proc.devRef .tc main_v15)
    = out (m ((c : Thread nD τ).loc main_arg0)) (m ((c : Thread nD τ).loc main_arg1)) (m ((c : Thread nD τ).loc main_arg2))
        (m ((c : Thread nD τ).loc main_arg3)) (m ((c : Thread nD τ).loc main_arg4)) (m ((c : Thread nD τ).loc main_arg5)) := by
  rw [W5_v15, W4_v14, V3_v12, V3_v13, V3_arg5, W2_v8, V1_v6, V1_v7, W2_arg3, W2_arg4, W2_arg5]
  rfl

end Cert.GraphConv.Kernel

end
-- ==== Proof.RefValue.lean ====
/-
  The reference program's result as a function of its six arguments.

  The reference's last stage, read at (n, t, o), is the `dot_general` of the aggregated features with the weight
  matrix plus the bias repeated over nodes and time steps: Σ_k h (n, t, k) · W (o, k) + b o, which is `outOf h W b`
  there. The aggregated features `h` are the scatter-add of the reference's messages, and those, read at (e, s, f),
  are the transposed edge weights (repeated along the features) times the gathered features: `msgOf` of the
  gathered features and the transposed weights. The gather and the scatter-add are carried as they stand.
-/
import proofs.«141694_j38465727103769_2_alg».proof.Proof.Gen.ReferenceIdeal.Read
import proofs.«141694_j38465727103769_2_alg».proof.Proof.Spec

noncomputable section

open Idealize.ShloMosaic Idealize.ShloMosaic.TcCoe Idealize.ShloMosaic.ValueIdx Idealize.SL.Sem

namespace Cert.GraphConv.Reference

open Cert.ReferenceIdeal Cert.ReferenceIdeal.Gen Cert.ReferenceIdeal.Read Cert.GraphConv

/-- The reference's messages are the message function of its gathered features and its transposed edge weights. -/
theorem messages_eq (x0 : (⟨S50000x4x64, .f32⟩ : BufTy).Contents (Elt Ideal)) (x1 : (⟨S4x800000, .f32⟩ : BufTy).Contents (Elt Ideal))
    (x2 : (⟨S800000, .i32⟩ : BufTy).Contents (Elt Ideal)) :
    val_main_v10 (F := Ideal) x0 x1 x2 = msgOf (val_main_v8 (F := Ideal) x0 x2) (val_main_v0 (F := Ideal) x1) := by
  funext i
  obtain ⟨e, s, f, rfl⟩ : ∃ (e : Fin 800000) (s : Fin 4) (f : Fin 64), i = ix3 e s f := ⟨i 0, i 1, i 2, eq_ix3 i⟩
  rw [val_main_v10_apply, val_main_v9_apply, val_main_v1_apply, msgOf_apply]
  have hi : idx_main_v1 (idx_main_v9 (ix3 e s f)) = ix2 e s :=
    funext fun a => Fin.ext (by match a with | ⟨0, _⟩ => rfl | ⟨1, _⟩ => rfl)
  rw [hi]
  rfl

/-- The aggregated features of the reference, with its messages in the spec's form. -/
def hidden (x0 : (⟨S50000x4x64, .f32⟩ : BufTy).Contents (Elt Ideal)) (x1 : (⟨S4x800000, .f32⟩ : BufTy).Contents (Elt Ideal))
    (x2 x3 : (⟨S800000, .i32⟩ : BufTy).Contents (Elt Ideal)) : (⟨S50000x4x64, .f32⟩ : BufTy).Contents (Elt Ideal) :=
  Host.scatterAdd (F := Ideal) (φ := .f32) scatter_S50000x4x64_S800000x1_S800000x4x64_12_0_0_1 (val_main_v11 (F := Ideal)) (val_main_v12 (F := Ideal) x3)
    (msgOf (val_main_v8 (F := Ideal) x0 x2) (val_main_v0 (F := Ideal) x1))

theorem hidden_eq (x0 : (⟨S50000x4x64, .f32⟩ : BufTy).Contents (Elt Ideal)) (x1 : (⟨S4x800000, .f32⟩ : BufTy).Contents (Elt Ideal))
    (x2 x3 : (⟨S800000, .i32⟩ : BufTy).Contents (Elt Ideal)) :
    val_main_v13 (F := Ideal) x0 x1 x2 x3 = hidden x0 x1 x2 x3 := by
  unfold val_main_v13 hidden
  rw [messages_eq]

/-- The reference's result is the three-axis linear layer of its aggregated features, the weight matrix and the bias. -/
theorem result_eq (x0 : (⟨S50000x4x64, .f32⟩ : BufTy).Contents (Elt Ideal)) (x1 : (⟨S4x800000, .f32⟩ : BufTy).Contents (Elt Ideal))
    (x2 x3 : (⟨S800000, .i32⟩ : BufTy).Contents (Elt Ideal)) (x4 : (⟨S64x64, .f32⟩ : BufTy).Contents (Elt Ideal))
    (x5 : (⟨S64, .f32⟩ : BufTy).Contents (Elt Ideal)) :
    val_main_v17 (F := Ideal) x0 x1 x2 x3 x4 x5 = outOf (hidden x0 x1 x2 x3) x4 x5 := by
  funext i
  obtain ⟨n, t, o, rfl⟩ : ∃ (n : Fin 50000) (t : Fin 4) (o : Fin 64), i = ix3 n t o := ⟨i 0, i 1, i 2, eq_ix3 i⟩
  rw [val_main_v17_apply, val_main_v14_apply, val_main_v16_apply, val_main_v15_apply, hidden_eq, outOf_apply]
  have hb : idx_main_v15 (idx_main_v16 (ix3 n t o)) = ix1 o :=
    funext fun a => Fin.ext (by match a with | ⟨0, _⟩ => rfl)
  have hl : ∀ k : Fin 64, lidx_main_v14 (ix3 n t o) k = ix3 n t k := fun k =>
    funext fun a => Fin.ext (by match a with | ⟨0, _⟩ => rfl | ⟨1, _⟩ => rfl | ⟨2, _⟩ => rfl)
  have hr : ∀ k : Fin 64, ridx_main_v14 (ix3 n t o) k = ix2 o k := fun k =>
    funext fun a => Fin.ext (by match a with | ⟨0, _⟩ => rfl | ⟨1, _⟩ => rfl)
  rw [hb]
  refine congrArg (· + x5 (ix1 o)) (Finset.sum_congr rfl fun k _ => ?_)
  rw [hl k, hr k]

end Cert.GraphConv.Reference

end
-- ==== Proof.Bridge.lean ====
/-
  The two programs compute one function of the arguments.

  Both aggregate the same messages with the same scatter-add: the two programs name their shapes and the gather's
  and the scatter's dimension numbers separately, but they are the same data, so the aggregated features are one
  array `h`. The kernel program then views `h` as 200000 rows, applies the row layer with the transposed weight
  matrix and views the result back as [50000, 4, 64]; the reference contracts the last axis of `h` with the weight
  matrix directly. Entry (n, t, o) of the first is row 4·n + t, column o of the row layer (the two views keep the
  row-major position: (n·4 + t)·64 + o either way), which is Σ_k h (n, t, k) · W (o, k) + b o, the reference's
  entry. The sums are over the same 64 terms in the same order, so no law of arithmetic is used.
-/
import proofs.«141694_j38465727103769_2_alg».proof.Proof.Fold
import proofs.«141694_j38465727103769_2_alg».proof.Proof.RefValue
import Idealize.ShloMosaic.Lib.Pipeline.Value

noncomputable section

open Idealize.ShloMosaic Idealize.ShloMosaic.TcCoe Idealize.ShloMosaic.ValueIdx Idealize.SL.Sem

namespace Cert.GraphConv.Bridge

open Cert.GraphConv

/-- The aggregated features of the two programs are one array. -/
theorem hidden_eq (x0 : (⟨Cert.KernelIdeal.S50000x4x64, .f32⟩ : BufTy).Contents (Elt Ideal))
    (x1 : (⟨Cert.KernelIdeal.S4x800000, .f32⟩ : BufTy).Contents (Elt Ideal))
    (x2 x3 : (⟨Cert.KernelIdeal.S800000, .i32⟩ : BufTy).Contents (Elt Ideal)) :
    Kernel.hidden x0 x1 x2 x3 = Reference.hidden x0 x1 x2 x3 := rfl

/-- The row layer on the row view, viewed back, is the three-axis layer. -/
theorem layer_eq (h : (⟨3, ![50000, 4, 64]⟩ : Shape).Idx → EReal) (W : (⟨2, ![64, 64]⟩ : Shape).Idx → EReal)
    (b : (⟨1, ![64]⟩ : Shape).Idx → EReal) :
    shapeCast Cert.KernelIdeal.S50000x4x64
      (linOf (shapeCast Cert.KernelIdeal.S200000x64 h Cert.KernelIdeal.Gen.shapeCasts_S50000x4x64_S200000x64)
        (transpose Cert.KernelIdeal.S64x64 [1, 0] W Cert.KernelIdeal.Gen.transposes_S64x64_S64x64_1_0) b)
      Cert.KernelIdeal.Gen.shapeCasts_S200000x64_S50000x4x64 = outOf h W b := by
  funext i
  obtain ⟨n, t, o, rfl⟩ : ∃ (n : Fin 50000) (t : Fin 4) (o : Fin 64), i = ix3 n t o := ⟨i 0, i 1, i 2, eq_ix3 i⟩
  have hr : 4 * n.val + t.val < 200000 := by omega
  refine (shapeCast_apply _ _ (ix3 n t o) (ix2 (⟨4 * n.val + t.val, hr⟩ : Fin 200000) o) ?_).trans ?_
  · rw [Shape.rowMajor_val_two, Shape.rowMajor_val_three]
    show (4 * n.val + t.val) * 64 + o.val = (n.val * 4 + t.val) * 64 + o.val
    omega
  · refine linOf_rows h _ W _ b (fun n' t' k r hr' => ?_) (fun k o' => ?_) n t o ⟨4 * n.val + t.val, hr⟩ rfl
    · refine shapeCast_apply _ _ (ix2 r k) (ix3 n' t' k) ?_
      rw [Shape.rowMajor_val_three, Shape.rowMajor_val_two]
      show (n'.val * 4 + t'.val) * 64 + k.val = r.val * 64 + k.val
      omega
    · refine transpose_apply [1, 0] W _ (ix2 k o') (ix2 o' k) (fun a => ?_)
      match a with
      | ⟨0, _⟩ => rfl
      | ⟨1, _⟩ => rfl

/-- The kernel program's result function is the reference's. -/
theorem out_eq (x0 : (⟨Cert.KernelIdeal.S50000x4x64, .f32⟩ : BufTy).Contents (Elt Ideal))
    (x1 : (⟨Cert.KernelIdeal.S4x800000, .f32⟩ : BufTy).Contents (Elt Ideal))
    (x2 x3 : (⟨Cert.KernelIdeal.S800000, .i32⟩ : BufTy).Contents (Elt Ideal))
    (x4 : (⟨Cert.KernelIdeal.S64x64, .f32⟩ : BufTy).Contents (Elt Ideal))
    (x5 : (⟨Cert.KernelIdeal.S64, .f32⟩ : BufTy).Contents (Elt Ideal)) :
    Cert.ReferenceIdeal.Read.val_main_v17 (F := Ideal) x0 x1 x2 x3 x4 x5 = Kernel.out x0 x1 x2 x3 x4 x5 := by
  rw [Reference.result_eq, ← hidden_eq]
  exact (layer_eq (Kernel.hidden x0 x1 x2 x3) x4 x5).symm

end Cert.GraphConv.Bridge

end
-- ==== Proof.lean ====
/-
  One weighted graph-convolution layer: for every edge, the source node's features (50000 nodes, 4 time steps, 64
  features) times the edge's weight at each time step; the messages added into their destination nodes; then a
  linear layer, Σ_k h (n, t, k) · W (o, k) + b o.

  The kernel program computes the messages in a first region (800000 edges in 250 blocks), aggregates them on the
  host, and applies the linear layer in a second region (200000 rows in 20 blocks) on the row view with the
  transposed weights; the reference does the three steps as whole-array host operations. On the extended reals a
  narrowing of the float format is the identity and a matrix product accumulated from zero is the plain sum, so the
  two results are the same sums of the same terms:
  * each region's output array is one whole-array function of its input arrays (the blocks cover the array);
  * the kernel program's result, read back through its segments, is that pair of functions around the shared gather
    and scatter-add, as a function of the six arguments;
  * the reference's result is the three-axis layer of the same aggregated features;
  * the row view of the layer is the three-axis layer.
  No law of arithmetic beyond reading indices is needed, so the precondition (finite inputs) is never opened.
-/
import proofs.«141694_j38465727103769_2_alg».proof.Defs
import proofs.«141694_j38465727103769_2_alg».proof.Proof.Gen.Kernel
import proofs.«141694_j38465727103769_2_alg».proof.Proof.Gen.Kernel.Frame
import proofs.«141694_j38465727103769_2_alg».proof.Proof.Gen.KernelIdeal
import proofs.«141694_j38465727103769_2_alg».proof.Proof.Gen.KernelIdeal.Frame
import proofs.«141694_j38465727103769_2_alg».proof.Proof.Gen.ReferenceIdeal
import proofs.«141694_j38465727103769_2_alg».proof.Proof.Gen.Pre_finite_inputs
import proofs.«141694_j38465727103769_2_alg».proof.Proof.Gen.ReferenceIdeal.Run
import proofs.«141694_j38465727103769_2_alg».proof.Proof.Gen.ReferenceIdeal.Read
import proofs.«141694_j38465727103769_2_alg».proof.Proof.KernelRun
import proofs.«141694_j38465727103769_2_alg».proof.Proof.Fold
import proofs.«141694_j38465727103769_2_alg».proof.Proof.Bridge
import Idealize.ShloMosaic.Adequacy
import Idealize.ShloMosaic.Init

noncomputable section

namespace Cert.Proof

open Idealize.ShloMosaic Idealize.ShloMosaic.TcCoe Idealize.SL.Sem

/-- The printed kernel program runs and leaves its arguments unchanged. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- So does the idealized reference: its run, with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- From memories agreeing on the arguments both idealized programs end with one result: the kernel program's
    result function of the arguments, which is the reference's. -/
theorem algebraic : Cert.algebraic_KernelIdeal_ReferenceIdeal := by
  intro m ρ m' ρ' _ hagree
  refine ⟨fun c => Cert.GraphConv.Kernel.out
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5)), ?_, ?_⟩
  · exact (θ_run Cert.KernelIdeal.defs _ _).mono
      (fun _ h c => ⟨(h c).1.trans (Cert.GraphConv.Kernel.W5_result m ρ c), (h c).2⟩)
      (Cert.GraphConv.Run.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v17_eq, (hagree c).1, (hagree c).2.1, (hagree c).2.2.1, (hagree c).2.2.2.1,
      (hagree c).2.2.2.2.1, (hagree c).2.2.2.2.2]
    exact Cert.GraphConv.Bridge.out_eq _ _ _ _ _ _

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
